-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S2048x256 : Shape := ⟨2, ![2048, 256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S2048x256 : S_.BroadcastsInDim S2048x256 (![] : Fin 0 → Fin S2048x256.rank)
  reducesTo_S2048x256_S_d0_1 : S2048x256.ReducesTo [0, 1] S_

variable [Facts]

def fn {F : FTy → Type} [FloatOps F] (main_arg0 : FVec F S8x2048x256 .f32) (main_arg1 : FVec F S2048x256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  main_v8
-- ==== Kernel.lean ====
abbrev S8x2048x256 : Shape := ⟨3, ![8, 2048, 256]⟩
abbrev S2048x256 : Shape := ⟨2, ![2048, 256]⟩
abbrev S8x2048x512 : Shape := ⟨3, ![8, 2048, 512]⟩
abbrev S8x2048x2048 : Shape := ⟨3, ![8, 2048, 2048]⟩
abbrev S1x512x256 : Shape := ⟨3, ![1, 512, 256]⟩
abbrev S1x512x512 : Shape := ⟨3, ![1, 512, 512]⟩
abbrev S1x512x2048 : Shape := ⟨3, ![1, 512, 2048]⟩
abbrev S512x256 : Shape := ⟨2, ![512, 256]⟩
abbrev S512x2048 : Shape := ⟨2, ![512, 2048]⟩
abbrev S512 : Shape := ⟨1, ![512]⟩
abbrev S512x1 : Shape := ⟨2, ![512, 1]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S8x2048x256, .f32⟩
  | .hbm, ⟨1, _⟩ => ⟨S2048x256, .f32⟩
  | .hbm, ⟨2, _⟩ => ⟨S8x2048x512, .f32⟩
  | .hbm, ⟨3, _⟩ => ⟨S8x2048x2048, .f32⟩
  | .local _ .vmem, ⟨0, _⟩ => ⟨S1x512x256, .f32⟩
  | .local _ .vmem, ⟨1, _⟩ => ⟨S1x512x256, .f32⟩
  | .local _ .vmem, ⟨2, _⟩ => ⟨S2048x256, .f32⟩
  | .local _ .vmem, ⟨3, _⟩ => ⟨S1x512x512, .f32⟩
  | .local _ .vmem, ⟨4, _⟩ => ⟨S1x512x512, .f32⟩
  | .local _ .vmem, ⟨5, _⟩ => ⟨S1x512x2048, .f32⟩
  | .local _ .vmem, ⟨6, _⟩ => ⟨S1x512x2048, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  concatenates_S512x256_S512x256_S512x512_d1 : Shape.Concatenates [S512x256, S512x256] S512x512 1
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  dot_S512x256_S2048x256_S512x2048_1_1_0_0_n_n_wf : DotDims.WF S512x256 S2048x256 S512x2048 [1] [1] [0] [0] [] []
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S8x2048x256.size a
  hwx0_0 : ∀ i : grid0.Coords, EltTy.bits .f32 = 32 ∨ (Rect.block (s := S8x2048x256) S1x512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x256.size a
  hwx0_1 : ∀ i : grid0.Coords, EltTy.bits .f32 = 32 ∨ (Rect.block (s := S2048x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S8x2048x512.size a
  hwx0_2 : ∀ i : grid0.Coords, EltTy.bits .f32 = 32 ∨ (Rect.block (s := S8x2048x512) S1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S8x2048x2048.size a
  hwx0_3 : ∀ i : grid0.Coords, EltTy.bits .f32 = 32 ∨ (Rect.block (s := S8x2048x2048) S1x512x2048.size (cc0_transform_3 i) (hinb0_3 i)).WholeWords (EltTy.packing .f32)

variable [Facts₀]

def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x512x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x256 : Shape := ⟨3, ![8, 2048, 256]⟩
abbrev S2048x256 : Shape := ⟨2, ![2048, 256]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x2048x512 : Shape := ⟨3, ![8, 2048, 512]⟩

abbrev nBuf : Space → Nat
  | .hbm => 22
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S2048x256, .f32⟩
  | .hbm, ⟨2, _⟩ => ⟨S8x2048x2048, .f32⟩
  | .hbm, ⟨3, _⟩ => ⟨S_, .f32⟩
  | .hbm, ⟨4, _⟩ => ⟨S8x2048x2048, .f32⟩
  | .hbm, ⟨5, _⟩ => ⟨S8x2048x2048, .f32⟩
  | .hbm, ⟨6, _⟩ => ⟨S_, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048x1, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S_, .f32⟩
  | .hbm, ⟨16, _⟩ => ⟨S8x2048, .f32⟩
  | .hbm, ⟨17, _⟩ => ⟨S8x2048x1, .f32⟩
  | .hbm, ⟨18, _⟩ => ⟨S8x2048x2048, .f32⟩
  | .hbm, ⟨19, _⟩ => ⟨S8x2048x2048, .f32⟩
  | .hbm, ⟨20, _⟩ => ⟨S8x2048x256, .f32⟩
  | .hbm, ⟨21, _⟩ => ⟨S8x2048x512, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  concatenates_S8x2048x256_S8x2048x256_S8x2048x512_d2 : Shape.Concatenates [S8x2048x256, S8x2048x256] S8x2048x512 2
  dot_S8x2048x256_S2048x256_S8x2048x2048_2_1_01_0_n_n_wf : DotDims.WF S8x2048x256 S2048x256 S8x2048x2048 [2] [1] [0, 1] [0] [] []
  dot_S8x2048x2048_S2048x256_S8x2048x256_2_0_01_1_n_n_wf : DotDims.WF S8x2048x2048 S2048x256 S8x2048x256 [2] [0] [0, 1] [1] [] []

variable [Facts₀]

def dot_S8x2048x256_S2048x256_S8x2048x2048_2_1_01_0_n_n : DotDims S8x2048x256 S2048x256 S8x2048x2048 where
  lhsContracting := [2]
  rhsContracting := [1]
  lhsNonContracting := [0, 1]
  rhsNonContracting := [0]
  lhsBatch := []
  rhsBatch := []
  wf := dot_S8x2048x256_S2048x256_S8x2048x2048_2_1_01_0_n_n_wf
def dot_S8x2048x2048_S2048x256_S8x2048x256_2_0_01_1_n_n : DotDims S8x2048x2048 S2048x256 S8x2048x256 where
  lhsContracting := [2]
  rhsContracting := [0]
  lhsNonContracting := [0, 1]
  rhsNonContracting := [1]
  lhsBatch := []
  rhsBatch := []
  wf := dot_S8x2048x2048_S2048x256_S8x2048x256_2_0_01_1_n_n_wf

class Facts : Prop extends Facts₀ where

variable [Facts]
-- ==== Proof.Spec.lean ====
/-
  Attention of query rows over a memory bank, on the extended reals.

  One query row `r` (256 entries) meets a bank `M` of 2048 rows of 256 entries. The score of bank row `n` is the dot
  product of `r` with that row, multiplied by the inverse temperature. The row's weights are the softmax of its 2048
  scores: each score less the row's peak, exponentiated, divided by the sum of the exponentials. The retrieved row is
  the weighted sum of the bank's rows. Nothing here needs the entries to be finite: every step is the same extended-real
  operation on both sides of the comparison this specification serves.

  Over whole arrays — queries `[8, 2048, 256]`, bank `[2048, 256]` — the attention result `[8, 2048, 2048]` holds, at
  (b, t, n), weight n of query row (b, t); the updated queries `[8, 2048, 512]` hold the query row in their first 256
  lanes and the retrieved row in their last 256.
-/
import Idealize.ShloMosaic.PureOps.Ideal
import Idealize.ShloMosaic.Lib.ValueIdx

noncomputable section

open scoped BigOperators

namespace Cert.MemAttn

open Idealize.ShloMosaic Idealize.ShloMosaic.ValueIdx

/-- The inverse temperature: the reciprocal of the single-precision number nearest to one tenth, which is
    13421773 / 2^27. -/
def invTemp : EReal := ((134217728 / 13421773 : ℝ) : EReal)

/-- The value a running maximum starts from: what the word of minus infinity denotes. -/
def lowest : EReal := Ideal.ofBits .f32 0xFF800000#32

/-- The score of bank row `n` for the query row `r`. -/
def score (r : Fin 256 → EReal) (M : Fin 2048 → Fin 256 → EReal) (n : Fin 2048) : EReal :=
  (∑ d : Fin 256, r d * M n d) * invTemp

/-- The peak of a row of scores: the running maximum over the row, once more against its starting value. -/
def peak (s : Fin 2048 → EReal) : EReal :=
  max lowest ((Finset.univ : Finset (Fin 2048)).fold max lowest s)

/-- A score less the row's peak, exponentiated. -/
def expo (s : Fin 2048 → EReal) (n : Fin 2048) : EReal := Ideal.exp (s n - peak s)

/-- The softmax weight of position `n` in a row of scores. -/
def weight (s : Fin 2048 → EReal) (n : Fin 2048) : EReal :=
  Ideal.div (expo s n) (∑ k : Fin 2048, expo s k)

/-- The attention weights of the query row `r` over the bank `M`. -/
def attnRow (r : Fin 256 → EReal) (M : Fin 2048 → Fin 256 → EReal) (n : Fin 2048) : EReal :=
  weight (score r M) n

/-- The retrieved row: the bank's rows weighted by the attention weights. -/
def retrRow (r : Fin 256 → EReal) (M : Fin 2048 → Fin 256 → EReal) (d : Fin 256) : EReal :=
  ∑ n : Fin 2048, attnRow r M n * M n d

/-- The lanes of an updated query row: the query row, then the retrieved row. -/
def joinRow (r : Fin 256 → EReal) (M : Fin 2048 → Fin 256 → EReal) (j : Fin 512) : EReal :=
  if h : j.val < 256 then r ⟨j.val, h⟩ else retrRow r M ⟨j.val - 256, by have := j.isLt; omega⟩

/-- Query row (b, t) of the queries array. -/
def qrow (Q : (⟨3, ![8, 2048, 256]⟩ : Shape).Idx → EReal) (b : Fin 8) (t : Fin 2048) : Fin 256 → EReal :=
  fun d => Q (ix3 b t d)

/-- The bank array as rows. -/
def bank (B : (⟨2, ![2048, 256]⟩ : Shape).Idx → EReal) : Fin 2048 → Fin 256 → EReal :=
  fun n d => B (ix2 n d)

/-- The attention result: at (b, t, n), weight `n` of query row (b, t). -/
def attnOut (Q : (⟨3, ![8, 2048, 256]⟩ : Shape).Idx → EReal) (B : (⟨2, ![2048, 256]⟩ : Shape).Idx → EReal) :
    (⟨3, ![8, 2048, 2048]⟩ : Shape).Idx → EReal :=
  fun i => attnRow (qrow Q (i 0) (i 1)) (bank B) (i 2)

/-- The updated queries: at (b, t, j), lane `j` of the joined row of query row (b, t). -/
def updOut (Q : (⟨3, ![8, 2048, 256]⟩ : Shape).Idx → EReal) (B : (⟨2, ![2048, 256]⟩ : Shape).Idx → EReal) :
    (⟨3, ![8, 2048, 512]⟩ : Shape).Idx → EReal :=
  fun i => joinRow (qrow Q (i 0) (i 1)) (bank B) (i 2)

end Cert.MemAttn

end
-- ==== Proof.LibRows.lean ====
/-
  Rows of a rank-2 array. A reduction of `[a, b]` over its second axis reads, at row `i`, the sum — or the running
  maximum — over the entries `(i, k)` of that row. And the square root, exponential and hyperbolic tangent of a vector
  read at an index: the extended reals' function of the entry.
-/
import Idealize.ShloMosaic.Lib.Pipeline.Value
import Idealize.ShloMosaic.Lib.ValueIdx
import Idealize.ShloMosaic.PureOps.Ideal.Laws

noncomputable section

open scoped BigOperators

namespace Idealize.ShloMosaic.ValueIdx

open Idealize.ShloMosaic

variable {α : Type}

/-- The entry `(i, k)` is the row index `i` with the coordinate `k` put back on the reduced axis. -/
theorem lift_row {a b : ℕ} (h : (⟨2, ![a, b]⟩ : Shape).Reduces [1] ⟨1, ![a]⟩) (i : Fin a) (k : Fin b) :
    h.lift (ix1 i) k = ix2 i k := by
  funext ax
  match ax with
  | ⟨0, _⟩ => rfl
  | ⟨1, _⟩ => rfl

/-- A sum over the second axis of `[a, b]`, at row `i`: the sum of that row's entries. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_row h i k)

/-- A maximum over the second axis of `[a, b]`, at row `i`: the fold of `max`, from the accumulator's value, over
    that row's entries. -/
theorem multiReduction_max_row {a b : ℕ} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  exact congrArg (Finset.fold max (Ideal.ofBits φ acc) · Finset.univ) (funext fun k => congrArg src (lift_row h i k))

/-- A square root at an index is the square root of the entry. -/
theorem sqrt_apply {s : Shape} {φ : FTy} (a : FVec Ideal s φ) (i : s.Idx) : sqrt a i = Ideal.sqrt (a i) := rfl
/-- An exponential at an index is the exponential of the entry. -/
theorem exp_apply {s : Shape} {φ : FTy} (a : FVec Ideal s φ) (i : s.Idx) : exp a i = Ideal.exp (a i) := rfl
/-- A hyperbolic tangent at an index is the hyperbolic tangent of the entry. -/
theorem tanh_apply {s : Shape} {φ : FTy} (a : FVec Ideal s φ) (i : s.Idx) : tanh a i = Ideal.tanh (a i) := rfl
/-- A scalar constant of the ideal instance is the extended real its word encodes. -/
theorem scalar_ofBits (φ : FTy) (b : BitVec φ.bits) : Scalar.ofBits (F := Ideal) φ b = Ideal.ofBits φ b := rfl

end Idealize.ShloMosaic.ValueIdx

end
-- ==== Proof.LibRowsDot.lean ====
/-
  A matrix product of two rank-2 operands that contracts the LAST axis of both (`x · yᵀ`), read at an entry.

  For dimension numbers `d` over operands of shapes [M, K] and [N, K] and a result of shape [M, N] whose one
  contracted axis is the second of each operand — given as the four coordinate facts of `d`'s operand index
  maps, which for a literal record are decided or read off `DotDims.lhsIdx_val_of_single` — a `tpu.matmul` into
  the zero accumulator at the ideal instance is, at entry (p, q),

      Σ_{k < K} lhs[p, k] · rhs[q, k].

  The contraction's index type is re-indexed to `Fin K` through `ValueIdx.contrEquiv1`.
-/
import Idealize.ShloMosaic.PureOps.Ideal.Laws
import Idealize.ShloMosaic.Lib.ValueIdx

noncomputable section

open scoped BigOperators

namespace Cert.Lora

open Idealize.ShloMosaic Idealize.ShloMosaic.ValueIdx

/-- `x · yᵀ` into the zero accumulator, at entry (p, q): the sum over the shared last axis of the products of row
    `p` of the left operand and row `q` of the right. The hypotheses say where the record's operand index maps
    read: the left operand at (row of the entry, contraction position), the right at (column of the entry,
    contraction position). -/
theorem rows_dot_zero {M N K : Nat} {φ₁ φ₂ : FTy}
    (d : DotDims ⟨2, ![M, K]⟩ ⟨2, ![N, K]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (j 1).val)
    (hr1 : ∀ (j : (⟨2, ![M, N]⟩ : Shape).Idx) (c : d.contr.Idx), (d.rhsIdx j c 1).val = (c ⟨0, by omega⟩).val)
    (lhs : FVec Ideal ⟨2, ![M, K]⟩ φ₁) (rhs : FVec Ideal ⟨2, ![N, K]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.Lora

end
-- ==== Proof.LibMatDot.lean ====
/-
  A matrix product of two rank-2 operands, `x · y`, read at an entry.

  For dimension numbers `d` over operands of shapes [M, K] and [K, N] and a result of shape [M, N] whose one
  contracted axis is the second of the left operand and the first of the right — given as the four coordinate
  facts of `d`'s operand index maps — a `tpu.matmul` into the zero accumulator at the ideal instance is, at
  entry (p, q),

      Σ_{k < K} lhs[p, k] · rhs[k, q].

  The contraction's index type is re-indexed to `Fin K` through `ValueIdx.contrEquiv1`.
-/
import Idealize.ShloMosaic.PureOps.Ideal.Laws
import Idealize.ShloMosaic.Lib.ValueIdx

noncomputable section

open scoped BigOperators

namespace Idealize.ShloMosaic.ValueIdx

open Idealize.ShloMosaic

/-- `x · y` into the zero accumulator, at entry (p, q): the sum over the shared axis of the products of row `p` of
    the left operand and column `q` of the right. The hypotheses say where the record's operand index maps read:
    the left operand at (row of the entry, contraction position), the right at (contraction position, column of
    the entry). -/
theorem mat_dot_zero {M N K : Nat} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (c ⟨0, by omega⟩).val)
    (hr1 : ∀ (j : (⟨2, ![M, N]⟩ : Shape).Idx) (c : d.contr.Idx), (d.rhsIdx j c 1).val = (j 1).val)
    (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Idealize.ShloMosaic.ValueIdx

end
-- ==== Proof.LibColumn.lean ====
/-
  A vector kept as a column. A row reduction with `keepdims` leaves a length-`a` vector that is cast to the column
  shape `[a, 1]` and then broadcast along the rows to `[a, b]`. Read at an index given by coordinates: the column at
  `(i, z)` is the vector at `i`, and the broadcast at `(i, j)` is the column at `(i, 0)`.
-/
import Idealize.ShloMosaic.Lib.Pipeline.Value
import Idealize.ShloMosaic.Lib.ValueIdx

namespace Idealize.ShloMosaic.ValueIdx

open Idealize.ShloMosaic

variable {α : Type}

/-- A length-`a` vector cast to the column `[a, 1]` reads, at `(i, z)`, the vector at `i`: both positions are `i` in
    row-major order, the column's second coordinate being `0`. -/
theorem shapeCast_a_a1_apply {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_one, Shape.rowMajor_val_two]
    show i.val = i.val * 1 + z.val
    rw [hz, Nat.mul_one, Nat.add_zero])

/-- A column `[a, 1]` broadcast to `[a, b]` reads, at `(i, j)`, the column at `(i, 0)`: the row coordinate is kept (or
    is `0` anyway when `a = 1`), the unit axis reads its only coordinate. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueIdx
-- ==== Proof.KernelRow.lean ====
/-
  What the kernel's body computes from one block of queries and the bank, entry by entry.

  The body receives a block of 512 query rows (as `[1, 512, 256]`) and the whole bank `[2048, 256]`. Row `p` of its
  attention block is the attention weights of query row `p` over the bank; row `p` of its updated-queries block is
  that query row followed by its retrieved row.

  The body's steps are named one by one — the scores, the rows' peaks, the exponentials, the rows' sums — and each is
  read at an index as the specification's function of query row `p` and the bank. A change of float format is the
  identity on the extended reals, a matrix product into a zero accumulator is a plain sum of products, and the named
  scale is the inverse temperature.
-/
import proofs.«124935_j80590766342421_1_alg».proof.Proof.Gen.KernelIdeal.Skeleton
import proofs.«124935_j80590766342421_1_alg».proof.Proof.Spec
import proofs.«124935_j80590766342421_1_alg».proof.Proof.LibRows
import proofs.«124935_j80590766342421_1_alg».proof.Proof.LibRowsDot
import proofs.«124935_j80590766342421_1_alg».proof.Proof.LibMatDot
import proofs.«124935_j80590766342421_1_alg».proof.Proof.LibColumn
import Idealize.ShloMosaic.Lib.Pipeline.Value
import Idealize.ShloMosaic.Lib.ValueIdx
import Idealize.ShloMosaic.PureOps.Ideal.Laws
import Idealize.ShloMosaic.PureOps.IdealRules

noncomputable section

open scoped BigOperators

namespace Cert.MemAttn.Ker

open Idealize.ShloMosaic Idealize.ShloMosaic.ValueIdx Cert.KernelIdeal Cert.KernelIdeal.Gen Cert.MemAttn

/-- Query row `p` of a block of queries. -/
def blockRow (x0 : Vec Ideal S1x512x256 .f32) (p : Fin 512) : Fin 256 → EReal :=
  fun d => x0 (ix3 (0 : Fin 1) p d)

/-! ## The block of queries as a matrix, and the named scale -/

/-- The block with its unit axis dropped reads, at (p, d), the block at (0, p, d). -/
theorem rows_at (x0 : Vec Ideal S1x512x256 .f32) (p : Fin 512) (d : Fin 256) :
    k0_pay1 (F := Ideal) x0 (ix2 p d) = x0 (ix3 (0 : Fin 1) p d) := by
  unfold k0_pay1
  refine shapeCast_apply _ _ _ _ ?_
  rw [Shape.rowMajor_val_two, Shape.rowMajor_val_three]
  show (0 * 512 + p.val) * 256 + d.val = p.val * 256 + d.val
  omega

/-- The named scale denotes the inverse temperature. -/
theorem scale_eq : Named.named (F := Ideal) Cert.KernelIdeal.κ "inv_temperature" (φ := .f32) 0x41200000#32 = invTemp :=
  IdealRules.named_const.ideal_named_scalar _ _ _ _ rfl

/-! ## The scores -/

/-- The body's scores: the block times the bank's transpose, scaled. -/
def scores (x0 : Vec Ideal S1x512x256 .f32) (x1 : Vec Ideal S2048x256 .f32) : FVec Ideal S512x2048 .f32 :=
  mulf (matmul dot_S512x256_S2048x256_S512x2048_1_1_0_0_n_n none (truncf .bf16 (k0_pay1 x0) bitsLt_bf16_f32) (k0_pay2 x1)
      (constant S512x2048 .f32 0x00000000#32))
    (broadcast S512x2048 (Named.named Cert.KernelIdeal.κ "inv_temperature" 0x41200000#32))

theorem scores_at (x0 : Vec Ideal S1x512x256 .f32) (x1 : Vec Ideal S2048x256 .f32) (p : Fin 512) (n : Fin 2048) :
    scores x0 x1 (ix2 p n) = score (blockRow x0 p) (bank x1) n := by
  unfold scores score
  rw [mulf_apply, broadcast_apply, scale_eq]
  refine congrArg (· * invTemp) ?_
  refine (Cert.Lora.rows_dot_zero dot_S512x256_S2048x256_S512x2048_1_1_0_0_n_n none rfl rfl ?_ ?_ ?_ ?_ _ _ p n).trans ?_
  · intro j c
    unfold DotDims.lhsIdx
    rw [dif_neg (show ¬(0 : Fin S512x256.rank) ∈ dot_S512x256_S2048x256_S512x2048_1_1_0_0_n_n.lhsBatch by decide), dif_pos (show (0 : Fin S512x256.rank) ∈ dot_S512x256_S2048x256_S512x2048_1_1_0_0_n_n.lhsNonContracting by decide)]
    rfl
  · exact fun j c => dot_S512x256_S2048x256_S512x2048_1_1_0_0_n_n.lhsIdx_val_of_single rfl j c
  · intro j c
    unfold DotDims.rhsIdx
    rw [dif_neg (show ¬(0 : Fin S2048x256.rank) ∈ dot_S512x256_S2048x256_S512x2048_1_1_0_0_n_n.rhsBatch by decide), dif_pos (show (0 : Fin S2048x256.rank) ∈ dot_S512x256_S2048x256_S512x2048_1_1_0_0_n_n.rhsNonContracting by decide)]
    rfl
  · exact fun j c => dot_S512x256_S2048x256_S512x2048_1_1_0_0_n_n.rhsIdx_val_of_single rfl j c
  · refine Finset.sum_congr rfl fun k _ => ?_
    show k0_pay1 (F := Ideal) x0 (ix2 p k) * x1 (ix2 n k) = _
    rw [rows_at]
    rfl

/-! ## A row's value kept as a column and spread along the row -/

/-- A length-512 vector cast to a column and broadcast along the rows reads, at (p, n), the vector at `p`. -/
theorem spread_at (v : FVec Ideal S512 .f32) (p : Fin 512) (n : Fin 2048) :
    broadcastTo S512x2048 (shapeCast S512x1 v shapeCasts_S512_S512x1) broadcasts_S512x1_S512x2048 (ix2 p n) = v (ix1 p) :=
  (broadcastTo_a1_ab_apply _ broadcasts_S512x1_S512x2048 p n).trans
    (shapeCast_a_a1_apply v shapeCasts_S512_S512x1 p (0 : Fin 1))

/-! ## The peaks, the exponentials, the sums -/

/-- The body's row peaks. -/
def peaks (x0 : Vec Ideal S1x512x256 .f32) (x1 : Vec Ideal S2048x256 .f32) : FVec Ideal S512 .f32 :=
  maximumf (broadcast S512 (Scalar.ofBits .f32 0xFF800000#32))
    (multiReduction .maximumf [1] S512 (scores x0 x1) 0xFF800000#32 reduces_S512x2048_S512 (.inl rfl) rfl)

theorem peaks_at (x0 : Vec Ideal S1x512x256 .f32) (x1 : Vec Ideal S2048x256 .f32) (p : Fin 512) :
    peaks x0 x1 (ix1 p) = peak (score (blockRow x0 p) (bank x1)) := by
  unfold peaks peak
  rw [maximumf_apply, broadcast_apply]
  refine congrArg (max _) ?_
  refine (multiReduction_max_row (scores x0 x1) 0xFF800000#32 reduces_S512x2048_S512 (.inl rfl) rfl p).trans ?_
  exact congrArg (Finset.fold max _ · Finset.univ) (funext fun k => scores_at x0 x1 p k)

/-- The body's exponentials. -/
def expos (x0 : Vec Ideal S1x512x256 .f32) (x1 : Vec Ideal S2048x256 .f32) : FVec Ideal S512x2048 .f32 :=
  exp (subf (scores x0 x1)
    (broadcastTo S512x2048 (shapeCast S512x1 (peaks x0 x1) shapeCasts_S512_S512x1) broadcasts_S512x1_S512x2048))

theorem expos_at (x0 : Vec Ideal S1x512x256 .f32) (x1 : Vec Ideal S2048x256 .f32) (p : Fin 512) (n : Fin 2048) :
    expos x0 x1 (ix2 p n) = expo (score (blockRow x0 p) (bank x1)) n := by
  unfold expos expo
  rw [exp_apply, subf_apply, spread_at, scores_at, peaks_at]

/-- The body's row sums of the exponentials. -/
def sums (x0 : Vec Ideal S1x512x256 .f32) (x1 : Vec Ideal S2048x256 .f32) : FVec Ideal S512 .f32 :=
  multiReduction .add [1] S512 (expos x0 x1) 0x00000000#32 reduces_S512x2048_S512 (.inl rfl) rfl

theorem sums_at (x0 : Vec Ideal S1x512x256 .f32) (x1 : Vec Ideal S2048x256 .f32) (p : Fin 512) :
    sums x0 x1 (ix1 p) = ∑ k : Fin 2048, expo (score (blockRow x0 p) (bank x1)) k := by
  unfold sums
  refine (multiReduction_add_row (expos x0 x1) 0x00000000#32 reduces_S512x2048_S512 (.inl rfl) rfl p).trans ?_
  exact Finset.sum_congr rfl fun k _ => expos_at x0 x1 p k

/-! ## The attention block -/

/-- The attention payload is the exponentials divided by their row sums. -/
theorem pay3_eq (x0 : Vec Ideal S1x512x256 .f32) (x1 : Vec Ideal S2048x256 .f32) :
    k0_pay3 (F := Ideal) x0 x1 = divf (expos x0 x1)
      (broadcastTo S512x2048 (shapeCast S512x1 (sums x0 x1) shapeCasts_S512_S512x1) broadcasts_S512x1_S512x2048) := rfl

/-- The attention block at (p, n): weight `n` of the block's query row `p` over the bank. -/
theorem attn_block (x0 : Vec Ideal S1x512x256 .f32) (x1 : Vec Ideal S2048x256 .f32) (p : Fin 512) (n : Fin 2048) :
    k0_pay3 (F := Ideal) x0 x1 (ix2 p n) = attnRow (blockRow x0 p) (bank x1) n := by
  rw [pay3_eq, divf_apply, spread_at, expos_at, sums_at]
  rfl

/-! ## The retrieved rows and the updated-queries block -/

/-- The body's retrieved rows: the attention block times the bank. -/
def retrieved (x0 : Vec Ideal S1x512x256 .f32) (x1 : Vec Ideal S2048x256 .f32) : FVec Ideal S512x256 .f32 :=
  matmul dot_S512x2048_S2048x256_S512x256_1_0_0_1_n_n none (truncf .bf16 (k0_pay3 x0 x1) bitsLt_bf16_f32) (k0_pay2 x1)
    (constant S512x256 .f32 0x00000000#32)

theorem retrieved_at (x0 : Vec Ideal S1x512x256 .f32) (x1 : Vec Ideal S2048x256 .f32) (p : Fin 512) (d : Fin 256) :
    retrieved x0 x1 (ix2 p d) = retrRow (blockRow x0 p) (bank x1) d := by
  unfold retrieved retrRow
  refine (mat_dot_zero dot_S512x2048_S2048x256_S512x256_1_0_0_1_n_n none rfl rfl ?_ ?_ ?_ ?_ _ _ p d).trans ?_
  · intro j c
    unfold DotDims.lhsIdx
    rw [dif_neg (show ¬(0 : Fin S512x2048.rank) ∈ dot_S512x2048_S2048x256_S512x256_1_0_0_1_n_n.lhsBatch by decide), dif_pos (show (0 : Fin S512x2048.rank) ∈ dot_S512x2048_S2048x256_S512x256_1_0_0_1_n_n.lhsNonContracting by decide)]
    rfl
  · exact fun j c => dot_S512x2048_S2048x256_S512x256_1_0_0_1_n_n.lhsIdx_val_of_single rfl j c
  · exact fun j c => dot_S512x2048_S2048x256_S512x256_1_0_0_1_n_n.rhsIdx_val_of_single rfl j c
  · intro j c
    unfold DotDims.rhsIdx
    rw [dif_neg (show ¬(1 : Fin S2048x256.rank) ∈ dot_S512x2048_S2048x256_S512x256_1_0_0_1_n_n.rhsBatch by decide), dif_pos (show (1 : Fin S2048x256.rank) ∈ dot_S512x2048_S2048x256_S512x256_1_0_0_1_n_n.rhsNonContracting by decide)]
    rfl
  · refine Finset.sum_congr rfl fun k _ => ?_
    show k0_pay3 (F := Ideal) x0 x1 (ix2 p k) * x1 (ix2 k d) = _
    rw [attn_block]
    rfl

/-- The updated-queries payload: the block's rows joined with the retrieved rows along the lanes, with the unit axis
    put back. -/
theorem pay5_eq (x0 : Vec Ideal S1x512x256 .f32) (x1 : Vec Ideal S2048x256 .f32) :
    k0_pay5 (F := Ideal) x0 x1 = shapeCast S1x512x512
      (concatenate S512x512 1 [⟨S512x256, k0_pay1 x0⟩, ⟨S512x256, retrieved x0 x1⟩] concatenates_S512x256_S512x256_S512x512_d1)
      shapeCasts_S512x512_S1x512x512 := rfl

/-- The updated-queries block at (0, p, j): lane `j` of the block's query row `p` joined with its retrieved row. -/
theorem upd_block (x0 : Vec Ideal S1x512x256 .f32) (x1 : Vec Ideal S2048x256 .f32) (p : Fin 512) (j : Fin 512) :
    k0_pay5 (F := Ideal) x0 x1 (ix3 (0 : Fin 1) p j) = joinRow (blockRow x0 p) (bank x1) j := by
  rw [pay5_eq]
  refine (shapeCast_apply _ _ (ix3 (0 : Fin 1) p j) (ix2 p j) ?_).trans ?_
  · rw [Shape.rowMajor_val_two, Shape.rowMajor_val_three]
    show p.val * 512 + j.val = (0 * 512 + p.val) * 512 + j.val
    omega
  · unfold joinRow
    split
    · next h =>
      refine (concatenate_pair_apply_left (1 : Fin S512x512.rank) (k0_pay1 (F := Ideal) x0) (retrieved x0 x1)
        concatenates_S512x256_S512x256_S512x512_d1 (ix2 p j) rfl (ix2 p ⟨j.val, h⟩) ?_).trans (rows_at x0 p ⟨j.val, h⟩)
      intro b
      match b with
      | ⟨0, _⟩ => rfl
      | ⟨1, _⟩ => rfl
    · next h =>
      have hj := j.isLt
      refine (concatenate_pair_apply_right (1 : Fin S512x512.rank) (k0_pay1 (F := Ideal) x0) (retrieved x0 x1)
        concatenates_S512x256_S512x256_S512x512_d1 (ix2 p j) rfl rfl (ix2 p ⟨j.val - 256, by omega⟩) ?_ ?_).trans
        (retrieved_at x0 x1 p ⟨j.val - 256, by omega⟩)
      · intro b hb
        match b with
        | ⟨0, _⟩ => rfl
        | ⟨1, _⟩ => exact absurd rfl hb
      · show j.val - 256 + 256 = j.val
        omega

end Cert.MemAttn.Ker

end
-- ==== Proof.Blocks.lean ====
/-
  From the blocks to the whole arrays.

  The grid has 8 × 4 points. Point (b, tile) receives the block of 512 query rows 512·tile … 512·tile + 511 of batch b,
  and the whole bank; it writes row block (b, tile) of each result array. Row p of the attention block is the attention
  weights of the block's query row p over the bank, and row p of the updated-queries block is that query row joined with
  its retrieved row. The block's query row p IS query row (b, 512·tile + p) of the queries array, and the bank block IS
  the bank, so what the point writes is block (b, tile) of one function of the two argument arrays. The 32 blocks tile
  each result array, so each array ends holding that function at every index.
-/
import proofs.«124935_j80590766342421_1_alg».proof.Proof.Gen.KernelIdeal.Value
import proofs.«124935_j80590766342421_1_alg».proof.Proof.KernelRow
import proofs.«124935_j80590766342421_1_alg».proof.Proof.Spec
import Idealize.ShloMosaic.Lib.Pipeline.Value
import Idealize.ShloMosaic.Lib.ValueIdx

noncomputable section

namespace Cert.MemAttn.Blocks

open Cert.KernelIdeal Cert.KernelIdeal.Gen Cert.KernelIdeal.Value Cert.MemAttn Idealize.ShloMosaic Idealize.ShloMosaic.TcCoe
  Idealize.SL.Sem Idealize.ShloMosaic.ValueIdx

variable (m : (ℓ : Loc nD τ sig) → Buf (Elt Ideal) ℓ) (ρ : Dev nD → PrngReg)

/-- The all-zero offsets of a whole rank-3 block, as a constant function. -/
theorem zero3 : (![0, 0, 0] : Fin 3 → Nat) = fun _ => 0 := funext fun a => by fin_cases a <;> rfl

/-- The all-zero offsets of a whole rank-2 block, as a constant function. -/
theorem zero2 : (![0, 0] : Fin 2 → Nat) = fun _ => 0 := funext fun a => by fin_cases a <;> rfl

/-- The index maps of the four windows, decided over the 32 grid points: the block of queries and the two result blocks
    have the same block indices on the batch axis and on the row axis, and block index 0 on the lane axis; the bank's
    block indices are 0. -/
theorem index_facts : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_2.index t (2 : Fin 3) = 0
    ∧ win0_0.index t (0 : Fin 3) = win0_3.index t (0 : Fin 3)
    ∧ win0_0.index t (1 : Fin 3) = win0_3.index t (1 : Fin 3)
    ∧ win0_3.index t (2 : Fin 3) = 0
    ∧ win0_1.index t (0 : Fin 2) = 0
    ∧ win0_1.index t (1 : Fin 2) = 0 :=
  (by decide +kernel : ∀ t : Fin grid0.N, _)

/-- Every block (batch, row tile) of the updated-queries array is some grid point's. -/
theorem index_onto_upd : ∀ (q0 : Fin 8) (q1 : Fin 4), ∃ t : Fin cfg0.N, win0_2.index t = ![q0.val, q1.val, 0] :=
  (by decide +kernel : ∀ (q0 : Fin 8) (q1 : Fin 4), ∃ t : Fin grid0.N, win0_2.index t = ![q0.val, q1.val, 0])

/-- Every block (batch, row tile) of the attention array is some grid point's. -/
theorem index_onto_attn : ∀ (q0 : Fin 8) (q1 : Fin 4), ∃ t : Fin cfg0.N, win0_3.index t = ![q0.val, q1.val, 0] :=
  (by decide +kernel : ∀ (q0 : Fin 8) (q1 : Fin 4), ∃ t : Fin grid0.N, win0_3.index t = ![q0.val, q1.val, 0])

/-- One entry of the attention block: if row `(y 1)` of the block of queries is query row `(i 0, i 1)` of the queries
    array, the bank block is the bank, and the bank position is the same, the entry is the attention result at `i`. -/
theorem attn_at (x0 : Vec Ideal S1x512x256 .f32) (x1 : Vec Ideal S2048x256 .f32)
    (Q : S8x2048x256.Idx → EReal) (B : S2048x256.Idx → EReal) (y : S1x512x2048.Idx) (i : S8x2048x2048.Idx)
    (hq : ∀ d : Fin 256, x0 (ix3 (0 : Fin 1) (⟨(y 1).val, (y 1).isLt⟩ : Fin 512) d) = Q (ix3 (i 0) (i 1) d))
    (hb : ∀ (n : Fin 2048) (d : Fin 256), x1 (ix2 n d) = B (ix2 n d))
    (hn : (i 2).val = (y 2).val) :
    E3 x0 x1 y = attnOut Q B i := by
  show k0_pay3 x0 x1 (ix3_0 y) = attnRow (qrow Q (i 0) (i 1)) (bank B) (i 2)
  have e : ix3_0 y = ix2 (⟨(y 1).val, (y 1).isLt⟩ : Fin 512) (⟨(y 2).val, (y 2).isLt⟩ : Fin 2048) := by
    funext a; match a with | ⟨0, _⟩ => rfl | ⟨1, _⟩ => rfl
  rw [e]
  refine (Ker.attn_block x0 x1 _ _).trans ?_
  have hr : Ker.blockRow x0 (⟨(y 1).val, (y 1).isLt⟩ : Fin 512) = qrow Q (i 0) (i 1) := funext fun d => hq d
  have hbk : bank x1 = bank B := funext fun n => funext fun d => hb n d
  rw [hr, hbk]
  exact congrArg (attnRow (qrow Q (i 0) (i 1)) (bank B)) (Fin.ext hn.symm)

/-- One entry of the updated-queries block, likewise: lane `(y 2)` of the block's query row `(y 1)` joined with its
    retrieved row is the updated queries at `i`. -/
theorem upd_at (x0 : Vec Ideal S1x512x256 .f32) (x1 : Vec Ideal S2048x256 .f32)
    (Q : S8x2048x256.Idx → EReal) (B : S2048x256.Idx → EReal) (y : S1x512x512.Idx) (i : S8x2048x512.Idx)
    (hq : ∀ d : Fin 256, x0 (ix3 (0 : Fin 1) (⟨(y 1).val, (y 1).isLt⟩ : Fin 512) d) = Q (ix3 (i 0) (i 1) d))
    (hb : ∀ (n : Fin 2048) (d : Fin 256), x1 (ix2 n d) = B (ix2 n d))
    (hn : (i 2).val = (y 2).val) :
    k0_pay5 (F := Ideal) x0 x1 y = updOut Q B i := by
  show k0_pay5 x0 x1 y = joinRow (qrow Q (i 0) (i 1)) (bank B) (i 2)
  have e : y = ix3 (0 : Fin 1) (⟨(y 1).val, (y 1).isLt⟩ : Fin 512) (⟨(y 2).val, (y 2).isLt⟩ : Fin 512) := by
    funext a; match a with
    | ⟨0, _⟩ => exact Fin.ext (by have : (y 0).val < 1 := (y 0).isLt; show (y 0).val = 0; omega)
    | ⟨1, _⟩ => rfl
    | ⟨2, _⟩ => rfl
  rw [e]
  refine (Ker.upd_block x0 x1 _ _).trans ?_
  have hr : Ker.blockRow x0 (⟨(y 1).val, (y 1).isLt⟩ : Fin 512) = qrow Q (i 0) (i 1) := funext fun d => hq d
  have hbk : bank x1 = bank B := funext fun n => funext fun d => hb n d
  rw [hr, hbk]
  exact congrArg (joinRow (qrow Q (i 0) (i 1)) (bank B)) (Fin.ext hn.symm)

/-- What a grid point writes back to the attention array is its block of the attention result of the argument arrays. -/
theorem flushed_attn (c : Dev nD) (t : Fin cfg0.N) :
    (dats m 0 c).flushed 3 t = ((cfg0.win 3).blk t).view.read (Elt Ideal) (attnOut (V m c main_arg0) (V m c main_arg1)) := by
  rw [Value.flushed3]
  unfold out0_3
  simp only [View.ld_unit_zero (S := S1x512x256) zero3, View.ld_unit_zero (S := S2048x256) zero2]
  obtain ⟨e0, e1, e2, e3, e4, e5, e6, e7, e8⟩ := index_facts t
  funext y
  show View.canon ([⟨r0_2, k0_pay4 (F := Ideal) (iblk m c 0 t) (iblk m c 1 t)⟩] : List (View.Piece (Elt Ideal) S1x512x2048 .f32)) y
    = attnOut (V m c main_arg0) (V m c main_arg1) (((cfg0.win 3).blk t).view.emb y)
  refine (Value.canon3_eq _ _ y).trans ?_
  refine attn_at _ _ _ _ y _ ?_ ?_ ?_
  · intro d
    show V m c main_arg0 _ = V m c main_arg0 _
    refine congrArg _ ?_
    funext a; apply Fin.ext
    match a with
    | ⟨0, _⟩ =>
      show win0_0.index t (0 : Fin 3) * 1 + 1 * 0 = win0_3.index t (0 : Fin 3) * 1 + 1 * (y 0).val
      have hy : (y 0).val < 1 := (y 0).isLt; omega
    | ⟨1, _⟩ =>
      show win0_0.index t (1 : Fin 3) * 512 + 1 * (y 1).val = win0_3.index t (1 : Fin 3) * 512 + 1 * (y 1).val
      omega
    | ⟨2, _⟩ =>
      show win0_0.index t (2 : Fin 3) * 256 + 1 * d.val = d.val
      omega
  · intro n d
    show V m c main_arg1 _ = V m c main_arg1 _
    refine congrArg _ ?_
    funext a; apply Fin.ext
    match a with
    | ⟨0, _⟩ => show win0_1.index t (0 : Fin 2) * 2048 + 1 * n.val = n.val; omega
    | ⟨1, _⟩ => show win0_1.index t (1 : Fin 2) * 256 + 1 * d.val = d.val; omega
  · show win0_3.index t (2 : Fin 3) * 2048 + 1 * (y 2).val = (y 2).val
    omega

/-- What a grid point writes back to the updated-queries array is its block of the updated queries of the argument
    arrays. -/
theorem flushed_upd (c : Dev nD) (t : Fin cfg0.N) :
    (dats m 0 c).flushed 2 t = ((cfg0.win 2).blk t).view.read (Elt Ideal) (updOut (V m c main_arg0) (V m c main_arg1)) := by
  rw [Value.flushed2]
  unfold out0_2
  rw [View.canon_unit_zero zero3]
  simp only [View.ld_unit_zero (S := S1x512x256) zero3, View.ld_unit_zero (S := S2048x256) zero2]
  obtain ⟨e0, e1, e2, e3, e4, e5, e6, e7, e8⟩ := index_facts t
  funext y
  show k0_pay5 (F := Ideal) (iblk m c 0 t) (iblk m c 1 t) y
    = updOut (V m c main_arg0) (V m c main_arg1) (((cfg0.win 2).blk t).view.emb y)
  refine upd_at _ _ _ _ y _ ?_ ?_ ?_
  · intro d
    show V m c main_arg0 _ = V m c main_arg0 _
    refine congrArg _ ?_
    funext a; apply Fin.ext
    match a with
    | ⟨0, _⟩ =>
      show win0_0.index t (0 : Fin 3) * 1 + 1 * 0 = win0_2.index t (0 : Fin 3) * 1 + 1 * (y 0).val
      have hy : (y 0).val < 1 := (y 0).isLt; omega
    | ⟨1, _⟩ =>
      show win0_0.index t (1 : Fin 3) * 512 + 1 * (y 1).val = win0_2.index t (1 : Fin 3) * 512 + 1 * (y 1).val
      omega
    | ⟨2, _⟩ =>
      show win0_0.index t (2 : Fin 3) * 256 + 1 * d.val = d.val
      omega
  · intro n d
    show V m c main_arg1 _ = V m c main_arg1 _
    refine congrArg _ ?_
    funext a; apply Fin.ext
    match a with
    | ⟨0, _⟩ => show win0_1.index t (0 : Fin 2) * 2048 + 1 * n.val = n.val; omega
    | ⟨1, _⟩ => show win0_1.index t (1 : Fin 2) * 256 + 1 * d.val = d.val; omega
  · show win0_2.index t (2 : Fin 3) * 512 + 1 * (y 2).val = (y 2).val
    omega

/-- An index of the updated-queries array is in a point's block iff each coordinate is in the block's range on its axis. -/
theorem mem_blk_upd (t : Fin cfg0.N) (i : S8x2048x512.Idx) :
    i ∈ ((cfg0.win 2).blk t).view.set ↔ ∀ a : Fin 3, win0_2.index t a * S1x512x512.size a ≤ (i a).val
      ∧ (i a).val < win0_2.index t a * S1x512x512.size a + S1x512x512.size a := by
  show i ∈ ((View.whole main_v0_0).slice (win0_2.rect t)).set ↔ _
  rw [View.set_slice_whole, Rect.mem_set_unit]
  exact Iff.rfl

/-- An index of the attention array is in a point's block iff each coordinate is in the block's range on its axis. -/
theorem mem_blk_attn (t : Fin cfg0.N) (i : S8x2048x2048.Idx) :
    i ∈ ((cfg0.win 3).blk t).view.set ↔ ∀ a : Fin 3, win0_3.index t a * S1x512x2048.size a ≤ (i a).val
      ∧ (i a).val < win0_3.index t a * S1x512x2048.size a + S1x512x2048.size a := by
  show i ∈ ((View.whole main_v0_1).slice (win0_3.rect t)).set ↔ _
  rw [View.set_slice_whole, Rect.mem_set_unit]
  exact Iff.rfl

/-- Every index (b, r, j) of the updated-queries array is in the block of the point whose block indices are
    (b, r / 512, 0). -/
theorem cover_upd (i : S8x2048x512.Idx) :
    ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 512 := (i 2).isLt
  obtain ⟨t, ht⟩ := index_onto_upd ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_blk_upd]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 512 ≤ (i 1).val ∧ (i 1).val < win0_2.index t (1 : Fin 3) * 512 + 512
    omega
  | ⟨2, _⟩ =>
    show win0_2.index t (2 : Fin 3) * 512 ≤ (i 2).val ∧ (i 2).val < win0_2.index t (2 : Fin 3) * 512 + 512
    omega

/-- Every index (b, r, n) of the attention array is in the block of the point whose block indices are (b, r / 512, 0). -/
theorem cover_attn (i : S8x2048x2048.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 2048 := (i 2).isLt
  obtain ⟨t, ht⟩ := index_onto_attn ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk_attn]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 512 ≤ (i 1).val ∧ (i 1).val < win0_3.index t (1 : Fin 3) * 512 + 512
    omega
  | ⟨2, _⟩ =>
    show win0_3.index t (2 : Fin 3) * 2048 ≤ (i 2).val ∧ (i 2).val < win0_3.index t (2 : Fin 3) * 2048 + 2048
    omega

/-- The updated-queries array after the run is the updated queries of the argument arrays. -/
theorem final_upd (c : Dev nD) : (dats m 0 c).arrAt 2 cfg0.N = updOut (m ((c : Thread nD τ).loc main_arg0)) (m ((c : Thread nD τ).loc main_arg1)) :=
  (dats m 0 c).arrAt_eq_of_cover 2 (updOut (V m c main_arg0) (V m c main_arg1)) (fun t _ => flushed_upd m c t) cover_upd

/-- The attention array after the run is the attention result of the argument arrays. -/
theorem final_attn (c : Dev nD) : (dats m 0 c).arrAt 3 cfg0.N = attnOut (m ((c : Thread nD τ).loc main_arg0)) (m ((c : Thread nD τ).loc main_arg1)) :=
  (dats m 0 c).arrAt_eq_of_cover 3 (attnOut (V m c main_arg0) (V m c main_arg1)) (fun t _ => flushed_attn m c t) cover_attn

/-- The kernel's run, read: each result array at its function of the argument arrays, the arguments unchanged. -/
theorem run : θ_run defs (onTc (τ := τ) (main (F := Ideal))) ⟨m, fun _ => 0, ρ⟩ fun r => ∀ c : Dev nD,
      r.2.mem ((c : Thread nD τ).loc main_v0_0) = updOut (m ((c : Thread nD τ).loc main_arg0)) (m ((c : Thread nD τ).loc main_arg1))
      ∧ r.2.mem ((c : Thread nD τ).loc main_v0_1) = attnOut (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_upd m c), (h c).2.1.trans (final_attn m c), (h c).2.2⟩)
    (Value.run_blocks m ρ)

end Cert.MemAttn.Blocks

end
-- ==== Proof.LibHostRows3.lean ====
/-
  Rows of a rank-3 array. A host reduction of `[a, b, c]` over its last axis, whose body is commutative and
  associative (a maximum, a minimum, a sum), reads at `(i, j)` the fold of the body, from the initial value's one
  element, over the entries `(i, j, k)` of that row.
-/
import Idealize.ShloMosaic.Lib.ValueIdx
import Idealize.ShloMosaic.PureOps.Reduce

noncomputable section

namespace Idealize.ShloMosaic.ValueIdx

open Idealize.ShloMosaic

variable {α : Type}

/-- The entry `(i, j, k)` is the index `(i, j)` with the coordinate `k` put back on the reduced last axis. -/
theorem lift_last3 {a b c : ℕ} (h : (⟨3, ![a, b, c]⟩ : Shape).Reduces [2] ⟨2, ![a, b]⟩) (i : Fin a) (j : Fin b)
    (k : Fin c) : h.lift (ix2 i j) k = ix3 i j k := by
  funext ax
  match ax with
  | ⟨0, _⟩ => rfl
  | ⟨1, _⟩ => rfl
  | ⟨2, _⟩ => rfl

/-- A host reduction over the last axis of `[a, b, c]` with a commutative and associative body `f`, at `(i, j)`: the
    fold of `f`, from the initial value's element, over the entries `(i, j, k)`. -/
theorem hostReduce_last3 {a b c : ℕ} {u : Shape} (f : α → α → α) [Std.Commutative f] [Std.Associative f]
    (x : (⟨3, ![a, b, c]⟩ : Shape).Idx → α) (init : u.Idx → α)
    (h' : (⟨3, ![a, b, c]⟩ : Shape).ReducesTo [2] ⟨2, ![a, b]⟩)
    (h : (⟨3, ![a, b, c]⟩ : Shape).Reduces [2] ⟨2, ![a, b]⟩) (hu : 0 < u.numel) (i : Fin a) (j : Fin b) :
    Host.reduce f x init h' hu (ix2 i j)
      = (Finset.univ : Finset (Fin c)).fold f (init (Shape.Idx.first hu)) (fun k => x (ix3 i j k)) := by
  rw [Host.reduce_eq_fold_single f x init h' h hu]
  exact congrArg (Finset.fold f (init (Shape.Idx.first hu)) · Finset.univ)
    (funext fun k => congrArg x (lift_last3 h i j k))

end Idealize.ShloMosaic.ValueIdx

end
-- ==== Proof.RefRow.lean ====
/-
  The reference computes the specification.

  Read one operation at a time, the reference forms, for query row (b, t): the dot products of the row with the
  bank's rows, each divided by the single-precision number nearest one tenth — which on the extended reals is the
  product with the inverse temperature, for every extended real —; their running maximum over the bank, once more
  against minus infinity; the exponentials of the scores less that peak; their sum; the quotients; and the sum of the
  bank's rows weighted by the quotients. These are the specification's score, peak, expo, weight and retrieved row. Its
  two results are then the attention weights, and the query row followed by the retrieved row.
-/
import proofs.«124935_j80590766342421_1_alg».proof.Proof.Gen.ReferenceIdeal.Read
import proofs.«124935_j80590766342421_1_alg».proof.Proof.Spec
import proofs.«124935_j80590766342421_1_alg».proof.Proof.LibHostRows3
import Idealize.ShloMosaic.Lib.ValueIdx
import Idealize.ShloMosaic.Lib.Pipeline.Value
import Idealize.ShloMosaic.PureOps.Ideal.Laws
import Idealize.ShloMosaic.PureOps.Reduce
import Idealize.ShloMosaic.PureOps.Ideal

noncomputable section

open scoped BigOperators

namespace Cert.MemAttn.Ref

open Cert.ReferenceIdeal Cert.ReferenceIdeal.Gen Cert.ReferenceIdeal.Read Idealize.ShloMosaic
  Idealize.ShloMosaic.ValueIdx Idealize.ShloMosaic.StableHlo

/-! ## The one law: dividing by the word of one tenth is multiplying by the inverse temperature -/

/-- The single-precision word `0x3DCCCCCD` denotes 13421773 / 2^27, the number of that format nearest one tenth. -/
theorem tenth : Ideal.ofBits .f32 0x3DCCCCCD#32 = ((13421773 / 134217728 : ℝ) : EReal) := by
  simp [Ideal.ofBits, Ideal.ieee, -EReal.coe_mul]; norm_num

/-- The quotient by that number is the product with its reciprocal, the inverse temperature, for every extended
    real: the infinities included, since the divisor is a nonzero real. -/
theorem div_tenth (x : EReal) : Ideal.div x (Ideal.ofBits .f32 0x3DCCCCCD#32) = x * Cert.MemAttn.invTemp := by
  rw [tenth, Ideal.div_coe (by norm_num : (13421773 / 134217728 : ℝ) ≠ 0)]
  unfold Cert.MemAttn.invTemp
  norm_num

/-! ## The scores -/

/-- The divided dot products at (b, t, n): the score of bank row `n` for query row (b, t). -/
theorem score_eq (x0 : (⟨S8x2048x256, .f32⟩ : BufTy).Contents (Elt Ideal))
    (x1 : (⟨S2048x256, .f32⟩ : BufTy).Contents (Elt Ideal)) (b : Fin 8) (t : Fin 2048) (n : Fin 2048) :
    val_main_v2 (F := Ideal) x0 x1 (ix3 b t n) = score (qrow x0 b t) (bank x1) n := by
  have el : ∀ k : Fin 256, lidx_main_v0 (ix3 b t n) k = ix3 b t k := fun k =>
    funext fun a => Fin.ext (by match a with | ⟨0, _⟩ => rfl | ⟨1, _⟩ => rfl | ⟨2, _⟩ => rfl)
  have er : ∀ k : Fin 256, ridx_main_v0 (ix3 b t n) k = ix2 n k := fun k =>
    funext fun a => Fin.ext (by match a with | ⟨0, _⟩ => rfl | ⟨1, _⟩ => rfl)
  rw [val_main_v2_apply, val_main_v0_apply, val_main_v1_apply, val_main_cst_apply]
  simp only [Ideal.hostDivf_def, Ideal.ofBits_def, el, er]
  rw [div_tenth]
  rfl

/-! ## The peak -/

/-- The running maximum over the bank, from minus infinity, at (b, t). -/
theorem rowmax_eq (x0 : (⟨S8x2048x256, .f32⟩ : BufTy).Contents (Elt Ideal))
    (x1 : (⟨S2048x256, .f32⟩ : BufTy).Contents (Elt Ideal)) (b : Fin 8) (t : Fin 2048) :
    val_main_v3 (F := Ideal) x0 x1 (ix2 b t)
      = (Finset.univ : Finset (Fin 2048)).fold max lowest (score (qrow x0 b t) (bank x1)) := by
  have hR : S8x2048x2048.Reduces [2] S8x2048 := by decide
  unfold val_main_v3
  generalize hy : val_main_v2 (F := Ideal) x0 x1 = y
  have h1 := hostReduce_last3 (a := 8) (b := 2048) (c := 2048) (FloatOps.maximumf (F := Ideal) (φ := .f32)) y
    (val_main_cst_0 (F := Ideal)) reducesTo_S8x2048x2048_S8x2048_d2 hR h_S_ b t
  refine h1.trans ?_
  subst hy
  have hf : (fun k : Fin 2048 => val_main_v2 (F := Ideal) x0 x1 (ix3 b t k)) = score (qrow x0 b t) (bank x1) :=
    funext fun k => score_eq x0 x1 b t k
  rw [hf]
  rfl

/-- That maximum once more against minus infinity: the peak of the row's scores. -/
theorem peak_eq (x0 : (⟨S8x2048x256, .f32⟩ : BufTy).Contents (Elt Ideal))
    (x1 : (⟨S2048x256, .f32⟩ : BufTy).Contents (Elt Ideal)) (b : Fin 8) (t : Fin 2048) :
    val_main_v5 (F := Ideal) x0 x1 (ix2 b t) = peak (score (qrow x0 b t) (bank x1)) := by
  rw [val_main_v5_apply, val_main_v4_apply, val_main_cst_1_apply, rowmax_eq]
  rfl

/-! ## The exponentials and their sum -/

/-- The exponential of a score less the row's peak, at (b, t, n). -/
theorem expo_eq (x0 : (⟨S8x2048x256, .f32⟩ : BufTy).Contents (Elt Ideal))
    (x1 : (⟨S2048x256, .f32⟩ : BufTy).Contents (Elt Ideal)) (b : Fin 8) (t : Fin 2048) (n : Fin 2048) :
    val_main_v9 (F := Ideal) x0 x1 (ix3 b t n) = expo (score (qrow x0 b t) (bank x1)) n := by
  have e : idx_main_v6 (idx_main_v7 (ix3 b t n)) = ix2 b t :=
    funext fun a => Fin.ext (by match a with | ⟨0, _⟩ => rfl | ⟨1, _⟩ => rfl)
  rw [val_main_v9_apply, val_main_v8_apply, val_main_v7_apply, val_main_v6_apply, e, peak_eq, score_eq]
  rfl

/-- The sum of a row's exponentials, at (b, t): the zero the sum starts from adds nothing. -/
theorem denom_eq (x0 : (⟨S8x2048x256, .f32⟩ : BufTy).Contents (Elt Ideal))
    (x1 : (⟨S2048x256, .f32⟩ : BufTy).Contents (Elt Ideal)) (b : Fin 8) (t : Fin 2048) :
    val_main_v10 (F := Ideal) x0 x1 (ix2 b t) = ∑ k : Fin 2048, expo (score (qrow x0 b t) (bank x1)) k := by
  have e : ∀ k : Fin 2048, idx_main_v10 (ix2 b t) k = ix3 b t k := fun k =>
    funext fun a => Fin.ext (by match a with | ⟨0, _⟩ => rfl | ⟨1, _⟩ => rfl | ⟨2, _⟩ => rfl)
  rw [val_main_v10_apply, val_main_cst_2_apply]
  simp only [Ideal.ofBits_def, Ideal.ofBits_zero_f32, zero_add, e, expo_eq]

/-! ## The weights and the retrieved row -/

/-- The quotient of an exponential by the row's sum, at (b, t, n): the attention weight. -/
theorem weight_eq (x0 : (⟨S8x2048x256, .f32⟩ : BufTy).Contents (Elt Ideal))
    (x1 : (⟨S2048x256, .f32⟩ : BufTy).Contents (Elt Ideal)) (b : Fin 8) (t : Fin 2048) (n : Fin 2048) :
    val_main_v13 (F := Ideal) x0 x1 (ix3 b t n) = attnRow (qrow x0 b t) (bank x1) n := by
  have e : idx_main_v11 (idx_main_v12 (ix3 b t n)) = ix2 b t :=
    funext fun a => Fin.ext (by match a with | ⟨0, _⟩ => rfl | ⟨1, _⟩ => rfl)
  rw [val_main_v13_apply, val_main_v12_apply, val_main_v11_apply, e, denom_eq, expo_eq]
  rfl

/-- The bank's rows weighted by the attention weights, at (b, t, d): the retrieved row. -/
theorem retr_eq (x0 : (⟨S8x2048x256, .f32⟩ : BufTy).Contents (Elt Ideal))
    (x1 : (⟨S2048x256, .f32⟩ : BufTy).Contents (Elt Ideal)) (b : Fin 8) (t : Fin 2048) (d : Fin 256) :
    val_main_v14 (F := Ideal) x0 x1 (ix3 b t d) = retrRow (qrow x0 b t) (bank x1) d := by
  have el : ∀ k : Fin 2048, lidx_main_v14 (ix3 b t d) k = ix3 b t k := fun k =>
    funext fun a => Fin.ext (by match a with | ⟨0, _⟩ => rfl | ⟨1, _⟩ => rfl | ⟨2, _⟩ => rfl)
  have er : ∀ k : Fin 2048, ridx_main_v14 (ix3 b t d) k = ix2 k d := fun k =>
    funext fun a => Fin.ext (by match a with | ⟨0, _⟩ => rfl | ⟨1, _⟩ => rfl)
  rw [val_main_v14_apply]
  simp only [el, er, weight_eq]
  rfl

/-! ## The two results -/

/-- The reference's attention result is the specification's. -/
theorem attn_eq (x0 : (⟨Cert.ReferenceIdeal.S8x2048x256, .f32⟩ : BufTy).Contents (Elt Ideal))
    (x1 : (⟨Cert.ReferenceIdeal.S2048x256, .f32⟩ : BufTy).Contents (Elt Ideal)) :
    Cert.ReferenceIdeal.Read.val_main_v13 (F := Ideal) x0 x1 = Cert.MemAttn.attnOut x0 x1 := by
  funext i
  obtain ⟨b, t, n, rfl⟩ : ∃ (b : Fin 8) (t : Fin 2048) (n : Fin 2048), i = ix3 b t n := ⟨i 0, i 1, i 2, eq_ix3 i⟩
  rw [weight_eq]
  rfl

/-- The reference's updated queries are the specification's: a lane below 256 reads the query row, a lane from 256 on
    reads the retrieved row at that lane less 256. -/
theorem upd_eq (x0 : (⟨Cert.ReferenceIdeal.S8x2048x256, .f32⟩ : BufTy).Contents (Elt Ideal))
    (x1 : (⟨Cert.ReferenceIdeal.S2048x256, .f32⟩ : BufTy).Contents (Elt Ideal)) :
    Cert.ReferenceIdeal.Read.val_main_v15 (F := Ideal) x0 x1 = Cert.MemAttn.updOut x0 x1 := by
  funext i
  obtain ⟨b, t, j, rfl⟩ : ∃ (b : Fin 8) (t : Fin 2048) (j : Fin 512), i = ix3 b t j := ⟨i 0, i 1, i 2, eq_ix3 i⟩
  unfold val_main_v15
  show _ = joinRow (qrow x0 b t) (bank x1) j
  unfold joinRow
  by_cases hj : j.val < 256
  · rw [dif_pos hj]
    exact concatenate_pair_apply_left 2 x0 (val_main_v14 (F := Ideal) x0 x1)
      concatenates_S8x2048x256_S8x2048x256_S8x2048x512_d2 (ix3 b t j) rfl (ix3 b t (⟨j.val, hj⟩ : Fin 256))
      (fun a => by match a with | ⟨0, _⟩ => rfl | ⟨1, _⟩ => rfl | ⟨2, _⟩ => rfl)
  · rw [dif_neg hj]
    have hlt : j.val - 256 < 256 := by have := j.isLt; omega
    refine (concatenate_pair_apply_right 2 x0 (val_main_v14 (F := Ideal) x0 x1)
      concatenates_S8x2048x256_S8x2048x256_S8x2048x512_d2 (ix3 b t j) rfl rfl (ix3 b t (⟨j.val - 256, hlt⟩ : Fin 256))
      (fun a ha => by
        match a with
        | ⟨0, _⟩ => rfl
        | ⟨1, _⟩ => rfl
        | ⟨2, _⟩ => exact absurd rfl ha)
      (by show j.val - 256 + 256 = j.val; omega)).trans ?_
    exact retr_eq x0 x1 b t ⟨j.val - 256, hlt⟩

end Cert.MemAttn.Ref

end
-- ==== Proof.lean ====
/-
  Memory-bank attention: the kernel against its plain reference, on the extended reals.

  Both programs take queries `[8, 2048, 256]` and a bank `[2048, 256]`. For each query row they form its 2048 scores
  against the bank's rows, scale them by the inverse temperature, take the softmax over the bank, and retrieve the
  weighted sum of the bank's rows; they return the weights `[8, 2048, 2048]` and the query rows joined with the retrieved
  rows `[8, 2048, 512]`. The kernel does this block by block, 512 query rows at a time, and multiplies the scores by a
  folded reciprocal; the reference does it at once and divides by the single-precision number nearest one tenth. The
  folded reciprocal is named as the exact reciprocal of that number, so the product and the quotient agree on every
  extended real, and from there on the two programs apply the same operations in the same order: no finiteness of the
  inputs is used.

  The specification (`Spec`) states both results as one function of the argument arrays. The kernel's blocks are read
  entry by entry (`KernelRow`) and assembled into whole arrays (`Blocks`); the reference's operations are read at an
  index (`RefRow`). Here the five claims are put together.
-/
import proofs.«124935_j80590766342421_1_alg».proof.Defs
import proofs.«124935_j80590766342421_1_alg».proof.Proof.Gen.Kernel
import proofs.«124935_j80590766342421_1_alg».proof.Proof.Gen.Kernel.Frame
import proofs.«124935_j80590766342421_1_alg».proof.Proof.Gen.KernelIdeal
import proofs.«124935_j80590766342421_1_alg».proof.Proof.Gen.KernelIdeal.Frame
import proofs.«124935_j80590766342421_1_alg».proof.Proof.Gen.KernelIdeal.Value
import proofs.«124935_j80590766342421_1_alg».proof.Proof.Gen.ReferenceIdeal
import proofs.«124935_j80590766342421_1_alg».proof.Proof.Gen.ReferenceIdeal.Run
import proofs.«124935_j80590766342421_1_alg».proof.Proof.Gen.ReferenceIdeal.Read
import proofs.«124935_j80590766342421_1_alg».proof.Proof.Gen.Pre_finite_inputs
import proofs.«124935_j80590766342421_1_alg».proof.Proof.Spec
import proofs.«124935_j80590766342421_1_alg».proof.Proof.KernelRow
import proofs.«124935_j80590766342421_1_alg».proof.Proof.Blocks
import proofs.«124935_j80590766342421_1_alg».proof.Proof.RefRow
import Idealize.ShloMosaic.PureOps.IdealRules
import Idealize.ShloMosaic.Adequacy
import Idealize.ShloMosaic.Init

noncomputable section

namespace Cert.Proof

open Idealize.ShloMosaic Idealize.ShloMosaic.TcCoe Idealize.SL.Sem

/-- The word-level kernel runs to the end without a fault and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The one rewrite of the idealization: the scale `10.0` is named, and denotes the exact reciprocal of the
    single-precision number nearest one tenth. -/
theorem preserves : Cert.preserves_Kernel_KernelIdeal :=
  IdealRules.named_const.statement Cert.KernelIdeal.κ "inv_temperature" .f32 0x41200000#32
    ((134217728 / 13421773 : ℝ) : EReal) rfl

/-- From memories that agree on the arguments, both programs end with the updated queries and the attention weights
    the specification states. -/
theorem algebraic : Cert.algebraic_KernelIdeal_ReferenceIdeal := by
  intro m ρ m' ρ' _ hagree
  refine ⟨_, _, Cert.MemAttn.Blocks.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v15_eq, Cert.MemAttn.Ref.upd_eq, (hagree c).1, (hagree c).2]
  · rw [(h c).2.1, Cert.ReferenceIdeal.Read.val_main_v13_eq, Cert.MemAttn.Ref.attn_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
